-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x2048 : Shape := ⟨2, ![4, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_arg5 : FVec F S8192x2048 .f32) (main_arg6 : FVec F S2048x8192 .f32) (main_arg7 : FVec F S8192x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg5
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S2048x8192 .f32 := Host.absf main_arg6
  let main_cst_8 : FVec F S_ .f32 := constant S_ .f32 0x7F800000#32
  let main_v25 : FVec F S2048x8192 .f32 := broadcastInDim S2048x8192 ![] bcast_S_S2048x8192 main_cst_8
  let main_v26 : IVec S2048x8192 1 := cmpf .olt main_v24 main_v25
  let main_c_9 : IVec S_ 1 := constantI S_ 1 1#1
  let main_v27 : IVec S_ 1 := (fun x v => Host.reduce IntOp.andi x v reducesTo_S2048x8192_S_d0_1 h_S_) main_v26 main_c_9
  let main_v28 : IVec S_ 1 := andi main_v23 main_v27
  let main_v29 : FVec F S8192x2048 .f32 := Host.absf main_arg7
  let main_cst_10 : FVec F S_ .f32 := constant S_ .f32 0x7F800000#32
  let main_v30 : FVec F S8192x2048 .f32 := broadcastInDim S8192x2048 ![] bcast_S_S8192x2048 main_cst_10
  let main_v31 : IVec S8192x2048 1 := cmpf .olt main_v29 main_v30
  let main_c_11 : IVec S_ 1 := constantI S_ 1 1#1
  let main_v32 : IVec S_ 1 := (fun x v => Host.reduce IntOp.andi x v reducesTo_S8192x2048_S_d0_1 h_S_) main_v31 main_c_11
  let main_v33 : IVec S_ 1 := andi main_v28 main_v32
  main_v33

def fn {F : FTy → Type} [FloatOps F] (main_arg0 : FVec F S4x2048x2048 .f32) (main_arg1 : IVec S4x2048 1) (main_arg2 : FVec F S8192x2048 .f32) (main_arg3 : FVec F S2048x8192 .f32) (main_arg4 : FVec F S8192x2048 .f32) (main_arg5 : FVec F S8192x2048 .f32) (main_arg6 : FVec F S2048x8192 .f32) (main_arg7 : FVec F S8192x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg2
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg3
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S8192x2048 .f32 := Host.absf main_arg4
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg5 main_arg6 main_arg7 main_v13 main_v16
-- ==== Kernel.lean ====
abbrev S4x2048x2048 : Shape := ⟨3, ![4, 2048, 2048]⟩
abbrev S4x2048 : Shape := ⟨2, ![4, 2048]⟩
abbrev S8192x2048 : Shape := ⟨2, ![8192, 2048]⟩
abbrev S2048x8192 : Shape := ⟨2, ![2048, 8192]⟩
abbrev S8192x1 : Shape := ⟨2, ![8192, 1]⟩
abbrev S512x2048 : Shape := ⟨2, ![512, 2048]⟩
abbrev S512x1 : Shape := ⟨2, ![512, 1]⟩
abbrev S2048x512 : Shape := ⟨2, ![2048, 512]⟩
abbrev S512x512 : Shape := ⟨2, ![512, 512]⟩

abbrev nBuf : Space → Nat
  | .hbm => 20
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i1⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S8192x2048, .f32⟩
  | .hbm, ⟨6, _⟩ => ⟨S2048x8192, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S8192x1, .i1⟩
  | .hbm, ⟨11, _⟩ => ⟨S8192x1, .bf16⟩
  | .hbm, ⟨12, _⟩ => ⟨S8192x2048, .bf16⟩
  | .hbm, ⟨13, _⟩ => ⟨S8192x2048, .bf16⟩
  | .hbm, ⟨14, _⟩ => ⟨S8192x2048, .bf16⟩
  | .hbm, ⟨15, _⟩ => ⟨S8192x2048, .bf16⟩
  | .hbm, ⟨16, _⟩ => ⟨S2048x8192, .bf16⟩
  | .hbm, ⟨17, _⟩ => ⟨S2048x8192, .bf16⟩
  | .hbm, ⟨18, _⟩ => ⟨S8192x2048, .f32⟩
  | .hbm, ⟨19, _⟩ => ⟨S4x2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x1, .bf16⟩
  | .local _ .vmem, ⟨3, _⟩ => ⟨S512x1, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_26 : BitVec 32 := 0#32
  let v53 : BitVec 1 := Scalar.cmpi .ne v52 c0_i32_26
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S4x2048x2048_S8192x2048 : S4x2048x2048.ShapeCasts S8192x2048
  bitsLt_bf16_f32 : FTy.bits .bf16 < FTy.bits .f32
  shapeCasts_S4x2048_S8192x1 : S4x2048.ShapeCasts S8192x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  transposes_S512x2048_p1_0_S2048x512 : S512x2048.Transposes [1, 0] S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  shapeCasts_S8192x2048_S4x2048x2048 : S8192x2048.ShapeCasts S4x2048x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .bf16 = 32 ∨ (Rect.block (s := S8192x1) S512x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .bf16 = 32 ∨ (Rect.block (s := S8192x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .bf16 = 32 ∨ (Rect.block (s := S8192x2048) S512x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S2048x8192.size a
  hwx0_6 : ∀ i : grid0.Coords, EltTy.bits .bf16 = 32 ∨ (Rect.block (s := S2048x8192) S2048x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x8192.size a
  hwx0_7 : ∀ i : grid0.Coords, EltTy.bits .bf16 = 32 ∨ (Rect.block (s := S2048x8192) S2048x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S8192x2048.size a
  hwx0_8 : ∀ i : grid0.Coords, EltTy.bits .f32 = 32 ∨ (Rect.block (s := S8192x2048) S512x2048.size (cc0_transform_8 i) (hinb0_8 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2048x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2048x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S512x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S4x2048 : Shape := ⟨2, ![4, 2048]⟩
abbrev S8192x2048 : Shape := ⟨2, ![8192, 2048]⟩
abbrev S2048x8192 : Shape := ⟨2, ![2048, 8192]⟩
abbrev S4x2048x8192 : Shape := ⟨3, ![4, 2048, 8192]⟩
abbrev S_ : Shape := ⟨0, ![]⟩
abbrev S4x2048x1 : Shape := ⟨3, ![4, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i1⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S8192x2048, .f32⟩
  | .hbm, ⟨6, _⟩ => ⟨S2048x8192, .f32⟩
  | .hbm, ⟨7, _⟩ => ⟨S8192x2048, .f32⟩
  | .hbm, ⟨8, _⟩ => ⟨S4x2048x8192, .f32⟩
  | .hbm, ⟨9, _⟩ => ⟨S4x2048x8192, .f32⟩
  | .hbm, ⟨10, _⟩ => ⟨S4x2048x8192, .f32⟩
  | .hbm, ⟨11, _⟩ => ⟨S_, .f32⟩
  | .hbm, ⟨12, _⟩ => ⟨S4x2048x8192, .f32⟩
  | .hbm, ⟨13, _⟩ => ⟨S4x2048x8192, .f32⟩
  | .hbm, ⟨14, _⟩ => ⟨S_, .f32⟩
  | .hbm, ⟨15, _⟩ => ⟨S4x2048x8192, .f32⟩
  | .hbm, ⟨16, _⟩ => ⟨S4x2048x8192, .f32⟩
  | .hbm, ⟨17, _⟩ => ⟨S4x2048x8192, .f32⟩
  | .hbm, ⟨18, _⟩ => ⟨S4x2048x8192, .f32⟩
  | .hbm, ⟨19, _⟩ => ⟨S4x2048x8192, .f32⟩
  | .hbm, ⟨20, _⟩ => ⟨S4x2048x8192, .f32⟩
  | .hbm, ⟨21, _⟩ => ⟨S4x2048x8192, .f32⟩
  | .hbm, ⟨22, _⟩ => ⟨S4x2048x8192, .f32⟩
  | .hbm, ⟨23, _⟩ => ⟨S_, .f32⟩
  | .hbm, ⟨24, _⟩ => ⟨S4x2048x8192, .f32⟩
  | .hbm, ⟨25, _⟩ => ⟨S4x2048x8192, .f32⟩
  | .hbm, ⟨26, _⟩ => ⟨S_, .f32⟩
  | .hbm, ⟨27, _⟩ => ⟨S4x2048x8192, .f32⟩
  | .hbm, ⟨28, _⟩ => ⟨S4x2048x8192, .f32⟩
  | .hbm, ⟨29, _⟩ => ⟨S4x2048x8192, .f32⟩
  | .hbm, ⟨30, _⟩ => ⟨S4x2048x8192, .f32⟩
  | .hbm, ⟨31, _⟩ => ⟨S4x2048x8192, .f32⟩
  | .hbm, ⟨32, _⟩ => ⟨S4x2048x2048, .f32⟩
  | .hbm, ⟨33, _⟩ => ⟨S4x2048x2048, .f32⟩
  | .hbm, ⟨34, _⟩ => ⟨S4x2048x1, .i1⟩
  | .hbm, ⟨35, _⟩ => ⟨S4x2048x2048, .i1⟩
  | .hbm, ⟨36, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call2_v0 : Ref sig .tc := ⟨.hbm, 35, rfl⟩
abbrev main_v11 : Ref sig .tc := ⟨.hbm, 36, rfl⟩

abbrev nD : Nat := 1
abbrev τ : Topo := Topo.v7x

variable {F : FTy → Type} [FloatOps F]

class Facts₀ : Prop where
  bcast_S_S4x2048x8192 : S_.BroadcastsInDim S4x2048x8192 (![] : Fin 0 → Fin S4x2048x8192.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.Pieces.lean ====
/-
  What one grid point leaves behind, as a value.

  The body of the kernel, at every grid point, loads the token block, the bit column, the four up-projection blocks,
  the two down-projection blocks and the accumulator, and stores `step … acc`: the accumulator plus the two
  down-projected blocks of gated activations.  At the first point of a row of the grid the accumulator is first set to
  the zero block; at the last point the accumulator just stored is also copied to the output block.  Here each of
  those stores is read back as the one pure function `step` of the loaded blocks, for any float instance.
-/
import proofs.«168786_j17377437680118_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- One point's update of the accumulator `acc`: from the token block `x0`, the bit column `x1`, the first branch's
    up-projection blocks `x2`, `x3`, the second's `x4`, `x5`, and the down-projection blocks `x6`, `x7`. -/
def step (x0 : Vec F S512x2048 .bf16) (x1 : Vec F S512x1 .bf16) (x2 : Vec F S512x2048 .bf16) (x3 : Vec F S512x2048 .bf16) (x4 : Vec F S512x2048 .bf16) (x5 : Vec F S512x2048 .bf16) (x6 : Vec F S2048x512 .bf16) (x7 : Vec F S2048x512 .bf16) (acc : Vec F S512x2048 .f32) : Vec F S512x2048 .f32 :=
  k0_pay1 (k0_pay5 x0 x2 x3 x1) (k0_pay6 x0 x4 x5 x1) x6 x7 acc

/-- The zero block the accumulator is reset to. -/
abbrev zeroBlock : Vec F S512x2048 .f32 := k0_pay2 (F := F)

/-- A middle point: the accumulator `xs0` becomes `step … xs0`. -/
theorem sout_B (c : Dev nD) (i : grid0.Coords) (arg2 : Memref sig .tc .vmem S512x2048 .bf16) (harg2 : arg2.IsWhole) (arg3 : Memref sig .tc .vmem S512x1 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : ¬cond0_1 i)
    (x0 : Vec F S512x2048 .bf16) (x1 : Vec F S512x1 .bf16) (x2 : Vec F S512x2048 .bf16) (x3 : Vec F S512x2048 .bf16) (x4 : Vec F S512x2048 .bf16) (x5 : Vec F S512x2048 .bf16) (x6 : Vec F S2048x512 .bf16) (x7 : Vec F S2048x512 .bf16) (xs0 : Vec F S512x2048 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz]
  unfold step
  simp only [View.readAt_eq_ld, harg2.read_unread, harg3.read_unread, harg4.read_unread, harg5.read_unread, harg6.read_unread, harg7.read_unread, harg8.read_unread, harg9.read_unread, harg11.read_unread, View.ld_unit_zero (S := S512x2048) hz, View.ld_unit_zero (S := S2048x512) hz, View.ld_unit_zero (S := S512x1) hz]

/-- A last point: the accumulator `xs0` becomes `step … xs0` … -/
theorem sout_C (c : Dev nD) (i : grid0.Coords) (arg2 : Memref sig .tc .vmem S512x2048 .bf16) (harg2 : arg2.IsWhole) (arg3 : Memref sig .tc .vmem S512x1 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i)
    (x0 : Vec F S512x2048 .bf16) (x1 : Vec F S512x1 .bf16) (x2 : Vec F S512x2048 .bf16) (x3 : Vec F S512x2048 .bf16) (x4 : Vec F S512x2048 .bf16) (x5 : Vec F S512x2048 .bf16) (x6 : Vec F S2048x512 .bf16) (x7 : Vec F S2048x512 .bf16) (xs0 : Vec F S512x2048 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  unfold step
  simp only [View.readAt_eq_ld, harg2.read_unread, harg3.read_unread, harg4.read_unread, harg5.read_unread, harg6.read_unread, harg7.read_unread, harg8.read_unread, harg9.read_unread, harg11.read_unread, View.ld_unit_zero (S := S512x2048) hz, View.ld_unit_zero (S := S2048x512) hz, View.ld_unit_zero (S := S512x1) hz]

/-- … and the output block is that same accumulator. -/
theorem out_C (c : Dev nD) (i : grid0.Coords) (arg2 : Memref sig .tc .vmem S512x2048 .bf16) (harg2 : arg2.IsWhole) (arg3 : Memref sig .tc .vmem S512x1 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .f32) (harg10 : arg10.IsWhole) (arg11 : Memref sig .tc .vmem S512x2048 .f32) (harg11 : arg11.IsWhole) (hc0 : ¬cond0_0 i) (hc1 : cond0_1 i)
    (x0 : Vec F S512x2048 .bf16) (x1 : Vec F S512x1 .bf16) (x2 : Vec F S512x2048 .bf16) (x3 : Vec F S512x2048 .bf16) (x4 : Vec F S512x2048 .bf16) (x5 : Vec F S512x2048 .bf16) (x6 : Vec F S2048x512 .bf16) (x7 : Vec F S2048x512 .bf16) (xs0 : Vec F S512x2048 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz, View.readCov_unit_zero (S := S512x2048) _ hz]
  unfold step
  simp only [View.readAt_eq_ld, harg2.read_unread, harg3.read_unread, harg4.read_unread, harg5.read_unread, harg6.read_unread, harg7.read_unread, harg8.read_unread, harg9.read_unread, harg11.read_unread, View.ld_unit_zero (S := S512x2048) hz, View.ld_unit_zero (S := S2048x512) hz, View.ld_unit_zero (S := S512x1) hz]

/-- A first point: the accumulator is reset, then updated: `step … 0`. -/
theorem sout_A (c : Dev nD) (i : grid0.Coords) (arg2 : Memref sig .tc .vmem S512x2048 .bf16) (harg2 : arg2.IsWhole) (arg3 : Memref sig .tc .vmem S512x1 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .f32) (harg10 : arg10.IsWhole) (arg11 : Memref sig .tc .vmem S512x2048 .f32) (harg11 : arg11.IsWhole) (hc0 : cond0_0 i) (hc1 : ¬cond0_1 i)
    (x0 : Vec F S512x2048 .bf16) (x1 : Vec F S512x1 .bf16) (x2 : Vec F S512x2048 .bf16) (x3 : Vec F S512x2048 .bf16) (x4 : Vec F S512x2048 .bf16) (x5 : Vec F S512x2048 .bf16) (x6 : Vec F S2048x512 .bf16) (x7 : Vec F S2048x512 .bf16) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = step x0 x1 x2 x3 x4 x5 x6 x7 zeroBlock := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S512x2048) hz, View.readCov_unit_zero (S := S512x2048) _ hz]
  unfold step
  simp only [View.readAt_eq_ld, harg2.read_unread, harg3.read_unread, harg4.read_unread, harg5.read_unread, harg6.read_unread, harg7.read_unread, harg8.read_unread, harg9.read_unread, harg11.read_unread, View.ld_unit_zero (S := S512x2048) hz, View.ld_unit_zero (S := S2048x512) hz, View.ld_unit_zero (S := S512x1) hz]

end Cert.KernelIdeal.Pieces

end
-- ==== Proof.Accum.lean ====
/-
  The accumulator, point by point.

  The grid is 16 rows of 16 points; point `n` is row `n / 16`, column `n % 16`.  Along a row the token block stays
  and the weight blocks move; the accumulator starts from the zero block at column 0 and takes one `step` per
  point.  So what the accumulator holds after point `n` is a chain of `step`s from the zero block over the points
  of `n`'s row up to `n` (`chain`), and at the last column the output block holds the same (`out_eq`).  By
  induction on the point.
-/
import proofs.«168786_j17377437680118_2_alg».proof.Proof.Pieces

set_option maxRecDepth 16384

noncomputable section

open Idealize.ShloMosaic Idealize.ShloMosaic.TcCoe Idealize.SL.Sem

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- One `step` over the blocks the eight input windows show at point `t`. -/
def stepAt (c : Dev nD) (t : Fin cfg0.N) (acc : Vec F S512x2048 .f32) : Vec F S512x2048 .f32 :=
  step (iblk m c 0 t) (iblk m c 1 t) (iblk m c 2 t) (iblk m c 3 t) (iblk m c 4 t) (iblk m c 5 t) (iblk m c 6 t) (iblk m c 7 t) acc

/-- The accumulator after point `n`: reset at the first column of a row, one `step` per point. -/
def chain (c : Dev nD) : (n : ℕ) → n < cfg0.N → Vec F S512x2048 .f32
  | 0, h => stepAt m c ⟨0, h⟩ zeroBlock
  | n + 1, h =>
    if (n + 1) % 16 = 0 then stepAt m c ⟨n + 1, h⟩ zeroBlock
    else stepAt m c ⟨n + 1, h⟩ (chain c n (Nat.lt_of_succ_lt h))

theorem chain_first (c : Dev nD) (t : Fin cfg0.N) (h0 : t.val % 16 = 0) :
    chain m c t.val t.isLt = stepAt m c t zeroBlock := by
  obtain ⟨n, hn⟩ := t
  cases n with
  | zero => rfl
  | succ n => exact if_pos h0

theorem chain_next (c : Dev nD) (t : Fin cfg0.N) (h0 : ¬t.val % 16 = 0) :
    chain m c t.val t.isLt = stepAt m c t (chain m c (t.val - 1) (Nat.lt_of_le_of_lt (Nat.sub_le _ _) t.isLt)) := by
  obtain ⟨n, hn⟩ := t
  cases n with
  | zero => exact absurd (Nat.zero_mod _) h0
  | succ n => exact if_neg h0

/-- A first column: the carried accumulator is one step from the zero block. -/
theorem scratch_A (c : Dev nD) (t : Fin cfg0.N) (h0 : t.val % 16 = 0) (h1 : ¬t.val % 16 = 15) :
    (outsAt0 m c t.val t.isLt).2 = stepAt m c t zeroBlock := by
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- A middle column: one step from what the point before left. -/
theorem scratch_B (c : Dev nD) (t : Fin cfg0.N) (h0 : ¬t.val % 16 = 0) (h1 : ¬t.val % 16 = 15) :
    (outsAt0 m c t.val t.isLt).2 = stepAt m c t (outsAt0 m c (t.val - 1) (Nat.lt_of_le_of_lt (Nat.sub_le _ _) t.isLt)).2 := by
  rw [outsAt0_B m c t h0 h1]
  dsimp only
  exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-- A last column: the same … -/
theorem scratch_C (c : Dev nD) (t : Fin cfg0.N) (h0 : ¬t.val % 16 = 0) (h1 : t.val % 16 = 15) :
    (outsAt0 m c t.val t.isLt).2 = stepAt m c t (outsAt0 m c (t.val - 1) (Nat.lt_of_le_of_lt (Nat.sub_le _ _) t.isLt)).2 := by
  rw [outsAt0_C m c t h0 h1]
  dsimp only
  exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-- … and the output block gets the same value. -/
theorem output_C (c : Dev nD) (t : Fin cfg0.N) (h0 : ¬t.val % 16 = 0) (h1 : t.val % 16 = 15) :
    (outsAt0 m c t.val t.isLt).1 = stepAt m c t (outsAt0 m c (t.val - 1) (Nat.lt_of_le_of_lt (Nat.sub_le _ _) t.isLt)).2 := by
  rw [outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-- The accumulator the frame run carries from point to point is the chain. -/
theorem scratch_eq (c : Dev nD) : ∀ (n : ℕ) (h : n < cfg0.N), (outsAt0 m c n h).2 = chain m c n h := by
  intro n
  induction n with
  | zero =>
    intro h
    exact scratch_A m c ⟨0, h⟩ (Nat.zero_mod _) (by show ¬(0 % 16 = 15); decide)
  | succ n ih =>
    intro h
    have hN : n + 1 < 256 := lt_of_lt_of_eq h (show cfg0.N = 256 from N_0)
    by_cases h0 : (n + 1) % 16 = 0
    · have h1 : ¬(n + 1) % 16 = 15 := by omega
      rw [chain_first m c ⟨n + 1, h⟩ h0]
      exact scratch_A m c ⟨n + 1, h⟩ h0 h1
    · rw [chain_next m c ⟨n + 1, h⟩ h0]
      by_cases h1 : (n + 1) % 16 = 15
      · exact (scratch_C m c ⟨n + 1, h⟩ h0 h1).trans (congrArg (stepAt m c ⟨n + 1, h⟩) (ih _))
      · exact (scratch_B m c ⟨n + 1, h⟩ h0 h1).trans (congrArg (stepAt m c ⟨n + 1, h⟩) (ih _))

/-- At the last column of a row the output block holds the chain too. -/
theorem out_eq (c : Dev nD) (t : Fin cfg0.N) (h1 : t.val % 16 = 15) :
    (outsAt0 m c t.val t.isLt).1 = chain m c t.val t.isLt := by
  have h0 : ¬t.val % 16 = 0 := by omega
  rw [chain_next m c t h0]
  exact (output_C m c t h0 h1).trans (congrArg (stepAt m c t) (scratch_eq m c _ _))

end Cert.KernelIdeal.Accum

end
-- ==== Proof.Final.lean ====
/-
  From the accumulator to the result array.

  Only the last point of a grid row writes its output block back, and that block is rows `512 i … 512 i + 511` of the
  `[8192, 2048]` result.  So row `R` of the result is row `R % 512` of the accumulator chain at the last point of
  grid row `R / 512` (`result`): each written block is that function read through the block (`flushed_eq`), the 16
  written blocks cover the array (`cover`), and the program's last operation views the array as `[4, 2048, 2048]`.
-/
import proofs.«168786_j17377437680118_2_alg».proof.Proof.Accum
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.Accum

variable {F : FTy → Type} [FloatOps F]
variable (m : (ℓ : Loc nD τ sig) → Buf (Elt F) ℓ) (ρ : Dev nD → PrngReg)

/-- The point that writes back the block holding flat row `R`: the last column of grid row `R / 512`. -/
def lastPt (R : ℕ) : ℕ := 16 * (R / 512 % 16) + 15

theorem lastPt_lt (R : ℕ) : lastPt R < cfg0.N := by
  rw [show cfg0.N = 256 from N_0]; unfold lastPt; omega

/-- The chain does not depend on how its point is spelt. -/
theorem chain_congr (c : Dev nD) {n n' : ℕ} (e : n = n') (h : n < cfg0.N) (h' : n' < cfg0.N) :
    chain m c n h = chain m c n' h' := by
  subst e; rfl

/-- THE RESULT ARRAY: row `R`, column `q` is the accumulator chain at the last point of `R`'s grid row, at `(R % 512, q)`. -/
def result (c : Dev nD) : S8192x2048.Idx → Elt F .f32 := fun y =>
  chain m c (lastPt (y 0).val) (lastPt_lt _)
    (ix2 (⟨(y 0).val % 512, Nat.mod_lt _ (by norm_num)⟩ : Fin 512) (⟨(y 1).val, idx2_lt1 y⟩ : Fin 2048))

/-- The result at an index of the block a last-column point `t` writes is that point's chain at the index inside the block. -/
theorem result_at (c : Dev nD) (t : Fin cfg0.N) (h15 : t.val % 16 = 15) (y : S8192x2048.Idx) (j : S512x2048.Idx)
    (h0 : (y 0).val = t.val / 16 * 512 + (j 0).val) (h1 : (y 1).val = (j 1).val) :
    result m c y = chain m c t.val t.isLt j := by
  have hN : t.val < 256 := lt_of_lt_of_eq t.isLt (show cfg0.N = 256 from N_0)
  have hj0 : (j 0).val < 512 := idx2_lt0 j
  have a0 : lastPt (y 0).val = t.val := by rw [h0]; unfold lastPt; omega
  have a1 : (ix2 (⟨(y 0).val % 512, Nat.mod_lt _ (by norm_num)⟩ : Fin 512) (⟨(y 1).val, idx2_lt1 y⟩ : Fin 2048) : S512x2048.Idx) = j := by
    funext a
    apply Fin.ext
    match a with
    | ⟨0, _⟩ => show (y 0).val % 512 = (j 0).val; rw [h0]; omega
    | ⟨1, _⟩ => show (y 1).val = (j 1).val; exact h1
  unfold result
  exact (congrFun (chain_congr m c a0 _ t.isLt) _).trans (congrArg (chain m c t.val t.isLt) a1)

/-- The output window's block index at point `t` is `(t / 16, 0)`. -/
theorem idx8 : ∀ t : Fin cfg0.N, win0_8.index t (0 : Fin 2) = t.val / 16 ∧ win0_8.index t (1 : Fin 2) = 0 :=
  (by decide +kernel : ∀ t : Fin grid0.N, win0_8.index t (0 : Fin 2) = t.val / 16 ∧ win0_8.index t (1 : Fin 2) = 0)

/-- WHAT A LAST-COLUMN POINT WRITES BACK is its block of `result`. -/
theorem flushed_eq (c : Dev nD) (t : Fin cfg0.N) (hf : (cfg0.win 8).flush t = true) :
    (dats m 0 c).flushed 8 t = ((cfg0.win 8).blk t).view.read (Elt F) (result m c) := by
  have h15 : t.val % 16 = 15 := (flush0_8 t).mp hf
  show (cfg0.win 8).cut (grid0.coords t) ((dats m 0 c).after 8 t) = _
  rw [after0_8, out_eq m c t h15]
  obtain ⟨e0, e1⟩ := idx8 t
  funext j
  show chain m c t.val t.isLt j = result m c (((cfg0.win 8).blk t).view.emb j)
  refine (result_at m c t h15 _ j ?_ ?_).symm
  · show win0_8.index t (0 : Fin 2) * 512 + 1 * (j 0).val = t.val / 16 * 512 + (j 0).val
    rw [e0]; omega
  · show win0_8.index t (1 : Fin 2) * 2048 + 1 * (j 1).val = (j 1).val
    rw [e1]; omega

/-- An index of the array is in point `t`'s block iff each coordinate is in the block's range on its axis. -/
theorem mem_blk (t : Fin cfg0.N) (i : S8192x2048.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v10).slice (win0_8.rect t)).set ↔ _
  rw [View.set_slice_whole, Rect.mem_set_unit]
  exact Iff.rfl

/-- Every row of the array is in the block of the last point of its grid row. -/
theorem cover (c : Dev nD) (i : S8192x2048.Idx) :
    ∃ t : Fin cfg0.N, (cfg0.win 8).flush t = true ∧ i ∈ ((cfg0.win 8).blk t).view.set := by
  have hi0 : (i 0).val < 8192 := idx2_lt0 i
  have hi1 : (i 1).val < 2048 := idx2_lt1 i
  have hN : cfg0.N = 256 := N_0
  have ht : 16 * ((i 0).val / 512) + 15 < cfg0.N := by rw [hN]; omega
  refine ⟨⟨16 * ((i 0).val / 512) + 15, ht⟩, (flush0_8 _).mpr (by show (16 * ((i 0).val / 512) + 15) % 16 = 15; omega), ?_⟩
  rw [mem_blk]
  obtain ⟨e0, e1⟩ := idx8 ⟨16 * ((i 0).val / 512) + 15, ht⟩
  have e0' : win0_8.index ⟨16 * ((i 0).val / 512) + 15, ht⟩ (0 : Fin 2) = (i 0).val / 512 := by rw [e0]; show (16 * ((i 0).val / 512) + 15) / 16 = _; omega
  intro a
  match a with
  | ⟨0, _⟩ =>
    show win0_8.index ⟨16 * ((i 0).val / 512) + 15, ht⟩ (0 : Fin 2) * 512 ≤ (i 0).val ∧ (i 0).val < win0_8.index ⟨16 * ((i 0).val / 512) + 15, ht⟩ (0 : Fin 2) * 512 + 512
    rw [e0']; omega
  | ⟨1, _⟩ =>
    show win0_8.index ⟨16 * ((i 0).val / 512) + 15, ht⟩ (1 : Fin 2) * 2048 ≤ (i 1).val ∧ (i 1).val < win0_8.index ⟨16 * ((i 0).val / 512) + 15, ht⟩ (1 : Fin 2) * 2048 + 2048
    rw [e1]; omega

/-- So the kernel's output array ends holding `result`. -/
theorem final (c : Dev nD) : (dats m 0 c).arrAt 8 cfg0.N = result m c :=
  (dats m 0 c).arrAt_eq_of_cover 8 (result m c) (fun t hf => flushed_eq m c t hf) (cover c)

/-- Viewing an `[8192, 2048]` array of the output's element type as the result's `[4, 2048, 2048]`, the element
    type carried along an equation between equal types, is the plain view. -/
theorem view_eq (R : S8192x2048.Idx → Elt F .f32) (he : main_v10.ty.elt = main_v11.ty.elt) :
    ((fun i => (he ▸ (shapeCast main_v11.ty.shape R Facts₀.shapeCasts_S8192x2048_S4x2048x2048 i : Elt F main_v10.ty.elt) : Elt F main_v11.ty.elt)) : S4x2048x2048.Idx → Elt F .f32)
      = shapeCast S4x2048x2048 R Facts₀.shapeCasts_S8192x2048_S4x2048x2048 := rfl

/-- The program's result: the output array viewed as `[4, 2048, 2048]`. -/
theorem tail_eq (c : Dev nD) :
    Pipeline.afterTail₀ cfgs (dats m) 0 (V0 m) [hostOps1] c main_v11
      = shapeCast S4x2048x2048 (result m c) Facts₀.shapeCasts_S8192x2048_S4x2048x2048 := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10)
      = result m c :=
    (Pipeline.withArrays_arr spec0 launch0.win.arr_inj c _ _ 8).trans (final m c)
  rw [e]
  exact view_eq (result m c) rfl

/-- THE RUN, READ: every weakly fair execution ends with the result at `result` viewed as `[4, 2048, 2048]` and the
    arguments unchanged. -/
theorem run : θ_run defs (onTc (τ := τ) (main (F := F))) ⟨m, fun _ => 0, ρ⟩ (fun r => ∀ c : Dev nD,
      r.2.mem ((c.tc : Thread nD τ).loc main_v11) = shapeCast S4x2048x2048 (result m c) Facts₀.shapeCasts_S8192x2048_S4x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Final

end
-- ==== Proof.Spec.lean ====
/-
  The mathematics of the gated two-branch feed-forward layer, one token at a time.

  A token is a row `xrow : Fin 2048 → EReal` of the input.  An up-projection pair `(wa, wb)` of `[8192, 2048]`
  matrices sends it to the gated activation `act i = silu (xrow · wa i) * (xrow · wb i)`, where
  `silu a = a * logistic a`, and a down-projection `wd` of shape `[2048, 8192]` sends the activations to
  `branch h = ∑ i, act i * wd (h, i)`.  The layer has two such branches and a one-bit choice per token: the result
  is the first branch where the bit is set and the second where it is not (`G`).

  The same result is reached by walking the 8192 activations in 16 blocks of 512, multiplying the first branch's
  activations by the bit read as a number `mv ∈ {0, 1}` and the second's by `1 - mv`, and adding both down-projected
  blocks into one running sum (`blockTerm`, `running`): on the extended reals `a * 0 = 0` for every `a`, so the
  losing branch contributes exactly `0` to every block, and a sum over 8192 indices is the sum over 16 blocks of the
  sums over 512 (`sum_blocks`).  That is `running_last`.
-/
import Idealize.ShloMosaic.PureOps.Ideal
import Idealize.ShloMosaic.Lib.ValueIdx

noncomputable section

open scoped BigOperators

namespace Cert.Spec

open Idealize.ShloMosaic Idealize.ShloMosaic.ValueIdx

/-- The input: 4 sequences of 2048 tokens of 2048 features. -/
abbrev Sx : Shape := ⟨3, ![4, 2048, 2048]⟩
/-- One bit per token. -/
abbrev Sm : Shape := ⟨2, ![4, 2048]⟩
/-- An up-projection: 8192 rows of 2048 features. -/
abbrev Su : Shape := ⟨2, ![8192, 2048]⟩
/-- A down-projection: 2048 rows of 8192 activations. -/
abbrev Sd : Shape := ⟨2, ![2048, 8192]⟩

/-- `silu a * b` with `silu a = a * logistic a`. -/
def glu (a b : EReal) : EReal := (a * Ideal.logistic a) * b

/-- The gated activation `i` of a token: `silu (xrow · wa i) * (xrow · wb i)`. -/
def act (xrow : Fin 2048 → EReal) (wa wb : Su.Idx → EReal) (i : Fin 8192) : EReal :=
  glu (∑ c : Fin 2048, xrow c * wa (ix2 i c)) (∑ c : Fin 2048, xrow c * wb (ix2 i c))

/-- One branch's output feature `h` of a token: its activations down-projected. -/
def branch (xrow : Fin 2048 → EReal) (wa wb : Su.Idx → EReal) (wd : Sd.Idx → EReal) (h : Fin 2048) : EReal :=
  ∑ i : Fin 8192, act xrow wa wb i * wd (ix2 h i)

/-- THE LAYER: per token the first branch `(w1, w3, w2)` where the token's bit is set, the second `(u1, u3, u2)`
    where it is not.  Arguments in the order the programs take them. -/
def G (x : Sx.Idx → EReal) (mask : Sm.Idx → BitVec 1) (w1 : Su.Idx → EReal) (w2 : Sd.Idx → EReal)
    (w3 u1 : Su.Idx → EReal) (u2 : Sd.Idx → EReal) (u3 : Su.Idx → EReal) : Sx.Idx → EReal := fun j =>
  Scalar.select (mask (ix2 (j 0) (j 1)))
    (branch (fun c => x (ix3 (j 0) (j 1) c)) w1 w3 w2 (j 2))
    (branch (fun c => x (ix3 (j 0) (j 1) c)) u1 u3 u2 (j 2))

/-- Activation `j` of block `k` is activation `512 k + j` (taken mod 8192, so that `k` may be any natural number). -/
def col (k : ℕ) (j : Fin 512) : Fin 8192 := ⟨(512 * k + j.val) % 8192, Nat.mod_lt _ (by norm_num)⟩

/-- What block `k` adds to output feature `h` of a token whose bit reads `mv`, with `one` the number the second
    branch's factor is taken from: both branches' blocks, the first scaled by `mv`, the second by `one - mv`. -/
def blockTerm (xrow : Fin 2048 → EReal) (mv one : EReal) (w1 w3 u1 u3 : Su.Idx → EReal) (w2 u2 : Sd.Idx → EReal)
    (h : Fin 2048) (k : ℕ) : EReal :=
  (∑ j : Fin 512, (act xrow w1 w3 (col k j) * mv) * w2 (ix2 h (col k j)))
    + (∑ j : Fin 512, (act xrow u1 u3 (col k j) * (one - mv)) * u2 (ix2 h (col k j)))

/-- The running sum after blocks `0 … n`, added in that order onto `z`. -/
def running (z : EReal) (T : ℕ → EReal) : ℕ → EReal
  | 0 => z + T 0
  | n + 1 => running z T n + T (n + 1)

end Cert.Spec

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Body.lean ====
/-
  The arithmetic of one grid point, read at one output index.

  One grid point sees a block of 512 tokens (rows `r`), a block of 512 activations (columns `j`) of each of the four
  up-projections, the matching 512 columns of the two down-projections, the tokens' bit column and the accumulator.
  With exact arithmetic every product of the body is a plain sum of products:

  * an up-projection product at `(r, j)` is the dot product of token `r`'s row with row `j` of the weight block (the
    block is transposed before the product, and the transposition is undone by reading it at the swapped index);
  * the gated activation at `(r, j)` is `glu` of two such dot products; it is multiplied by the token's bit read as a
    number (first branch) or by one minus it (second branch), the column of bits being stretched along `j`;
  * a down-projection product at `(r, h)` is the sum over `j` of the scaled activation `(r, j)` times the weight
    `(h, j)`;
  * the point stores the accumulator plus the sum of the two down-projection products.

  Narrowing a value to sixteen bits changes nothing on the extended reals, and a cast of an array to its own shape is
  the identity, so neither leaves a trace.
-/
import proofs.«168786_j17377437680118_2_alg».proof.Proof.Pieces
import proofs.«168786_j17377437680118_2_alg».proof.Proof.Spec
import proofs.«168786_j17377437680118_2_alg».proof.Proof.LibPlainDot
import proofs.«168786_j17377437680118_2_alg».proof.Proof.LibColumn
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- The sixteen-bit pattern of the body's constant is the number one. -/
theorem one_bits : Ideal.ofBits .bf16 0x3F80#16 = 1 := IdealRules.sign_bit.ideal_onePat .bf16

/-- The logistic function of an array, read at an index, is the logistic function of the entry there. -/
theorem logistic_at {s : Shape} {φ : FTy} (v : FVec Ideal s φ) (i : s.Idx) :
    logistic v i = Ideal.logistic (v i) := rfl

/-- An up-projection product at `(r, j)`: token `r`'s row against row `j` of the weight block `w`, which enters the
    product transposed. -/
theorem up_apply (x w : FVec Ideal S512x2048 .bf16) (r j : Fin 512) :
    matmul (F := Ideal) dot_S512x2048_S2048x512_S512x512_1_0_0_1_n_n none x
        (transpose S2048x512 [1, 0] w Facts₀.transposes_S512x2048_p1_0_S2048x512)
        (constant (F := Ideal) S512x512 .f32 0x00000000#32) (ix2 r j)
      = ∑ c : Fin 2048, x (ix2 r c) * w (ix2 j c) := by
  refine (Cert.LibPlainDot.matmul_zero_apply (R := 512) (K := 2048) (C := 512)
    Facts₀.dot_S512x2048_S2048x512_S512x512_1_0_0_1_n_n_wf none x _ r j).trans ?_
  refine Finset.sum_congr rfl fun c _ => ?_
  rw [transpose_ix2_apply]

/-- A down-projection product at `(r, h)`: the activations `a (r, ·)` against row `h` of the weight block `w`, which
    enters the product transposed. -/
theorem down_apply (a : FVec Ideal S512x512 .bf16) (w : FVec Ideal S2048x512 .bf16) (r : Fin 512) (h : Fin 2048) :
    matmul (F := Ideal) dot_S512x512_S512x2048_S512x2048_1_0_0_1_n_n none a
        (transpose S512x2048 [1, 0] w Facts₀.transposes_S2048x512_p1_0_S512x2048)
        (constant (F := Ideal) S512x2048 .f32 0x00000000#32) (ix2 r h)
      = ∑ j : Fin 512, a (ix2 r j) * w (ix2 h j) := by
  refine (Cert.LibPlainDot.matmul_zero_apply (R := 512) (K := 512) (C := 2048)
    Facts₀.dot_S512x512_S512x2048_S512x2048_1_0_0_1_n_n_wf none a _ r h).trans ?_
  refine Finset.sum_congr rfl fun j _ => ?_
  rw [transpose_ix2_apply]

/-- The first branch's scaled activation at `(r, j)`: `glu` of the two dot products, times the token's bit. -/
theorem pay5_apply (x0 x2 x3 : Vec Ideal S512x2048 .bf16) (x1 : Vec Ideal S512x1 .bf16) (r j : Fin 512) :
    k0_pay5 (F := Ideal) x0 x2 x3 x1 (ix2 r j)
      = Cert.Spec.glu (∑ c : Fin 2048, x0 (ix2 r c) * x2 (ix2 j c)) (∑ c : Fin 2048, x0 (ix2 r c) * x3 (ix2 j c))
          * x1 (ix2 r (0 : Fin 1)) := by
  unfold k0_pay5 k0_pay3 k0_pay4
  simp only [shapeCast_self]
  rw [mulf_apply, truncf_apply, mulf_apply, mulf_apply, logistic_at, Cert.LibColumn.broadcastTo_a1_ab_apply, up_apply,
    up_apply]
  rfl

/-- The second branch's scaled activation at `(r, j)`: `glu` of the two dot products, times one minus the token's
    bit. -/
theorem pay6_apply (x0 x4 x5 : Vec Ideal S512x2048 .bf16) (x1 : Vec Ideal S512x1 .bf16) (r j : Fin 512) :
    k0_pay6 (F := Ideal) x0 x4 x5 x1 (ix2 r j)
      = Cert.Spec.glu (∑ c : Fin 2048, x0 (ix2 r c) * x4 (ix2 j c)) (∑ c : Fin 2048, x0 (ix2 r c) * x5 (ix2 j c))
          * ((1 : EReal) - x1 (ix2 r (0 : Fin 1))) := by
  unfold k0_pay6 k0_pay3 k0_pay4
  simp only [shapeCast_self]
  rw [mulf_apply, truncf_apply, mulf_apply, mulf_apply, logistic_at, Cert.LibColumn.broadcastTo_a1_ab_apply, subf_apply,
    broadcast_apply, up_apply, up_apply]
  show _ * (Ideal.ofBits .bf16 0x3F80#16 - x1 (ix2 r (0 : Fin 1))) = _
  rw [one_bits]
  rfl

/-- ONE GRID POINT AT `(r, h)`: the accumulator plus the two down-projected blocks of scaled activations. -/
theorem step_apply (x0 : Vec Ideal S512x2048 .bf16) (x1 : Vec Ideal S512x1 .bf16)
    (x2 x3 x4 x5 : Vec Ideal S512x2048 .bf16) (x6 x7 : Vec Ideal S2048x512 .bf16) (acc : Vec Ideal S512x2048 .f32)
    (r : Fin 512) (h : Fin 2048) :
    Pieces.step x0 x1 x2 x3 x4 x5 x6 x7 acc (ix2 r h)
      = acc (ix2 r h)
        + ((∑ j : Fin 512, (Cert.Spec.glu (∑ c : Fin 2048, x0 (ix2 r c) * x2 (ix2 j c))
              (∑ c : Fin 2048, x0 (ix2 r c) * x3 (ix2 j c)) * x1 (ix2 r (0 : Fin 1))) * x6 (ix2 h j))
         + (∑ j : Fin 512, (Cert.Spec.glu (∑ c : Fin 2048, x0 (ix2 r c) * x4 (ix2 j c))
              (∑ c : Fin 2048, x0 (ix2 r c) * x5 (ix2 j c)) * ((1 : EReal) - x1 (ix2 r (0 : Fin 1)))) * x7 (ix2 h j))) := by
  unfold Pieces.step k0_pay1
  simp only [shapeCast_self]
  rw [addf_apply, addf_apply, down_apply, down_apply]
  refine congrArg (acc (ix2 r h) + ·) (congrArg₂ (· + ·) ?_ ?_)
  · exact Finset.sum_congr rfl fun j _ => congrArg (· * x6 (ix2 h j)) (pay5_apply x0 x2 x3 x1 r j)
  · exact Finset.sum_congr rfl fun j _ => congrArg (· * x7 (ix2 h j)) (pay6_apply x0 x4 x5 x1 r j)

/-- The block the accumulator is reset to is zero everywhere. -/
theorem zeroBlock_apply (y : S512x2048.Idx) : Pieces.zeroBlock (F := Ideal) y = 0 := by
  unfold Pieces.zeroBlock k0_pay2
  simp only [shapeCast_self]
  show Ideal.ofBits .f32 0x00000000#32 = 0
  exact Ideal.ofBits_zero_f32

end Cert.KernelIdeal.Body

end
-- ==== Proof.Blocks.lean ====
/-
  What each input window's block holds, in terms of the program's argument arrays.

  The grid has 16 x 16 points; point `n` is `(n / 16, n % 16)`.  Before the grid runs, the host casts the input
  `[4, 2048, 2048]` to `[8192, 2048]` rows of tokens (flat row `R` is sequence `R / 2048`, position `R % 2048`), the
  bits `[4, 2048]` to a column `[8192, 1]` read as numbers, and narrows every array to sixteen bits, which on the
  extended reals changes nothing.  Then

  * the token block and the bit column at point `n` are rows `512 (n / 16) + r` of those arrays;
  * an up-projection block at point `n` is rows `512 (n % 16) + j` of its matrix, that is the activations of block
    `n % 16`;
  * a down-projection block at point `n` is columns `512 (n % 16) + j` of its matrix.

  A block's entry inside its array is always (block index) x (block size) + (coordinate inside the block) on each
  axis, and the block indices are decided once over the 256 points.
-/
import proofs.«168786_j17377437680118_2_alg».proof.Proof.Gen.KernelIdeal.Frame
import proofs.«168786_j17377437680118_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

/-- The sequence of the token in row `r` of the token block at point `n`. -/
def tokB (n : ℕ) (r : Fin 512) : Fin 4 := ⟨(512 * (n / 16) + r.val) / 2048 % 4, Nat.mod_lt _ (by norm_num)⟩
/-- Its position in the sequence. -/
def tokS (n : ℕ) (r : Fin 512) : Fin 2048 := ⟨(512 * (n / 16) + r.val) % 2048, Nat.mod_lt _ (by norm_num)⟩

/-- The cast of a `[4, 2048, 2048]` array to `[8192, 2048]`, read at row `R = 2048 b + s`: the entry `(b, s, ·)`. -/
theorem rows3_apply {α : Type} (x : S4x2048x2048.Idx → α) (h : S4x2048x2048.ShapeCasts S8192x2048)
    (R : Fin 8192) (cc : Fin 2048) (b : Fin 4) (s : Fin 2048) (hR : R.val = 2048 * b.val + s.val) :
    shapeCast S8192x2048 x h (ix2 R cc) = x (ix3 b s cc) :=
  shapeCast_apply x h _ _ (by
    rw [Shape.rowMajor_val_three, Shape.rowMajor_val_two]
    show (b.val * 2048 + s.val) * 2048 + cc.val = R.val * 2048 + cc.val
    rw [hR]; ring)

/-- The cast of a `[4, 2048]` array to a column `[8192, 1]`, read at row `R = 2048 b + s`: the entry `(b, s)`. -/
theorem rows2_apply {α : Type} (x : S4x2048.Idx → α) (h : S4x2048.ShapeCasts S8192x1)
    (R : Fin 8192) (u : Fin 1) (b : Fin 4) (s : Fin 2048) (hR : R.val = 2048 * b.val + s.val) :
    shapeCast S8192x1 x h (ix2 R u) = x (ix2 b s) :=
  shapeCast_apply x h _ _ (by
    rw [Shape.rowMajor_val_two, Shape.rowMajor_val_two]
    show b.val * 2048 + s.val = R.val * 1 + u.val
    have hu : u.val = 0 := by omega
    rw [hR, hu]; ring)

section
variable (m : (ℓ : Loc nD τ sig) → Buf (Elt Ideal) ℓ)

/-- Window 0's array: the input cast to rows of tokens. -/
theorem arr0 (c : Dev nD) : (V m c main_v1 : S8192x2048.Idx → EReal)
    = truncf (F := Ideal) (φ := .f32) .bf16 (shapeCast S8192x2048 (m ((c : Thread nD τ).loc main_arg0))
        Facts₀.shapeCasts_S4x2048x2048_S8192x2048) Facts₀.bitsLt_bf16_f32 := by
  show StableHlo.after hostOps0 (fun b => m (c, b)) (Proc.devRef .tc main_v1) = _
  after_results
  rfl

/-- The token block at point `t`, row `r`: token `(tokB, tokS)` of the input. -/
theorem blk0 (c : Dev nD) (t : Fin cfg0.N) (r : Fin 512) (cc : Fin 2048) :
    (iblk m c 0 t : Vec Ideal S512x2048 .bf16) (ix2 r cc)
      = m ((c : Thread nD τ).loc main_arg0) (ix3 (tokB t.val r) (tokS t.val r) cc) := by
  have ht : t.val < 256 := lt_of_lt_of_eq t.isLt N_0
  have hi : win0_0.index t 0 = t.val / 16 ∧ win0_0.index t 1 = 0 :=
    (by decide +kernel : ∀ t : Fin grid0.N, win0_0.index t 0 = t.val / 16 ∧ win0_0.index t 1 = 0) t
  unfold iblk
  rw [View.read_apply]
  show (V m c main_v1 : S8192x2048.Idx → EReal) _ = _
  rw [arr0 m c]
  have hR : 512 * (t.val / 16) + r.val < 8192 := by omega
  -- the block's entry in the array: (block index) x (block size) + (coordinate in the block), axis by axis
  have hemb : (((cfg0.win 0).blk t).view.emb (ix2 r cc) : S8192x2048.Idx)
      = ix2 (⟨512 * (t.val / 16) + r.val, hR⟩ : Fin 8192) cc := funext fun a => Fin.ext (by
    match a with
    | ⟨0, _⟩ => show win0_0.index t 0 * 512 + 1 * r.val = 512 * (t.val / 16) + r.val; rw [hi.1]; omega
    | ⟨1, _⟩ => show win0_0.index t 1 * 2048 + 1 * cc.val = cc.val; rw [hi.2]; omega)
  show shapeCast S8192x2048 (m ((c : Thread nD τ).loc main_arg0)) _ (((cfg0.win 0).blk t).view.emb (ix2 r cc)) = _
  refine (congrArg _ hemb).trans ?_
  exact rows3_apply _ _ _ cc (tokB t.val r) (tokS t.val r) (by
    show 512 * (t.val / 16) + r.val
      = 2048 * ((512 * (t.val / 16) + r.val) / 2048 % 4) + (512 * (t.val / 16) + r.val) % 2048
    omega)

/-- Window 1's array: the bits cast to a column and read as numbers. -/
theorem arr1 (c : Dev nD) : (V m c main_v3 : S8192x1.Idx → EReal)
    = uitofp (F := Ideal) .bf16 (shapeCast S8192x1 (m ((c : Thread nD τ).loc main_arg1))
        Facts₀.shapeCasts_S4x2048_S8192x1) := by
  show StableHlo.after hostOps0 (fun b => m (c, b)) (Proc.devRef .tc main_v3) = _
  after_results
  rfl

/-- The bit column at point `t`, row `r`: the bit of token `(tokB, tokS)`, as a number. -/
theorem blk1 (c : Dev nD) (t : Fin cfg0.N) (r : Fin 512) :
    (iblk m c 1 t : Vec Ideal S512x1 .bf16) (ix2 r (0 : Fin 1))
      = (((m ((c : Thread nD τ).loc main_arg1) (ix2 (tokB t.val r) (tokS t.val r))).toNat : ℝ) : EReal) := by
  have ht : t.val < 256 := lt_of_lt_of_eq t.isLt N_0
  have hi : win0_1.index t 0 = t.val / 16 ∧ win0_1.index t 1 = 0 :=
    (by decide +kernel : ∀ t : Fin grid0.N, win0_1.index t 0 = t.val / 16 ∧ win0_1.index t 1 = 0) t
  unfold iblk
  rw [View.read_apply]
  show (V m c main_v3 : S8192x1.Idx → EReal) _ = _
  rw [arr1 m c]
  have hR : 512 * (t.val / 16) + r.val < 8192 := by omega
  have hemb : (((cfg0.win 1).blk t).view.emb (ix2 r (0 : Fin 1)) : S8192x1.Idx)
      = ix2 (⟨512 * (t.val / 16) + r.val, hR⟩ : Fin 8192) (0 : Fin 1) := funext fun a => Fin.ext (by
    match a with
    | ⟨0, _⟩ => show win0_1.index t 0 * 512 + 1 * r.val = 512 * (t.val / 16) + r.val; rw [hi.1]; omega
    | ⟨1, _⟩ => show win0_1.index t 1 * 1 + 1 * 0 = 0; rw [hi.2])
  show (((shapeCast S8192x1 (m ((c : Thread nD τ).loc main_arg1)) _
    (((cfg0.win 1).blk t).view.emb (ix2 r (0 : Fin 1)))).toNat : ℝ) : EReal) = _
  refine congrArg (fun b : BitVec 1 => ((b.toNat : ℝ) : EReal)) ((congrArg _ hemb).trans ?_)
  exact rows2_apply _ _ _ (0 : Fin 1) (tokB t.val r) (tokS t.val r) (by
    show 512 * (t.val / 16) + r.val
      = 2048 * ((512 * (t.val / 16) + r.val) / 2048 % 4) + (512 * (t.val / 16) + r.val) % 2048
    omega)

/-- Window 2's array: the first branch's gate up-projection, narrowed (the identity here). -/
theorem arr2 (c : Dev nD) : (V m c main_v4 : S8192x2048.Idx → EReal)
    = truncf (F := Ideal) (φ := .f32) .bf16 (m ((c : Thread nD τ).loc main_arg2)) Facts₀.bitsLt_bf16_f32 := by
  show StableHlo.after hostOps0 (fun b => m (c, b)) (Proc.devRef .tc main_v4) = _
  after_results

/-- Window 2's block at point `t`: the rows of block `t % 16` of the first branch's gate up-projection. -/
theorem blk2 (c : Dev nD) (t : Fin cfg0.N) (j : Fin 512) (cc : Fin 2048) :
    (iblk m c 2 t : Vec Ideal S512x2048 .bf16) (ix2 j cc)
      = m ((c : Thread nD τ).loc main_arg2) (ix2 (Cert.Spec.col (t.val % 16) j) cc) := by
  have ht : t.val < 256 := lt_of_lt_of_eq t.isLt N_0
  have hi : win0_2.index t 0 = t.val % 16 ∧ win0_2.index t 1 = 0 :=
    (by decide +kernel : ∀ t : Fin grid0.N, win0_2.index t 0 = t.val % 16 ∧ win0_2.index t 1 = 0) t
  unfold iblk
  rw [View.read_apply]
  show (V m c main_v4 : S8192x2048.Idx → EReal) _ = _
  rw [arr2 m c]
  have hemb : (((cfg0.win 2).blk t).view.emb (ix2 j cc) : S8192x2048.Idx)
      = ix2 (Cert.Spec.col (t.val % 16) j) cc := funext fun a => Fin.ext (by
    match a with
    | ⟨0, _⟩ =>
      show win0_2.index t 0 * 512 + 1 * j.val = (512 * (t.val % 16) + j.val) % 8192
      rw [hi.1]; omega
    | ⟨1, _⟩ => show win0_2.index t 1 * 2048 + 1 * cc.val = cc.val; rw [hi.2]; omega)
  exact congrArg (m ((c : Thread nD τ).loc main_arg2)) hemb

/-- Window 3's array: the first branch's second up-projection, narrowed (the identity here). -/
theorem arr3 (c : Dev nD) : (V m c main_v5 : S8192x2048.Idx → EReal)
    = truncf (F := Ideal) (φ := .f32) .bf16 (m ((c : Thread nD τ).loc main_arg4)) Facts₀.bitsLt_bf16_f32 := by
  show StableHlo.after hostOps0 (fun b => m (c, b)) (Proc.devRef .tc main_v5) = _
  after_results

/-- Window 3's block at point `t`: the rows of block `t % 16` of the first branch's second up-projection. -/
theorem blk3 (c : Dev nD) (t : Fin cfg0.N) (j : Fin 512) (cc : Fin 2048) :
    (iblk m c 3 t : Vec Ideal S512x2048 .bf16) (ix2 j cc)
      = m ((c : Thread nD τ).loc main_arg4) (ix2 (Cert.Spec.col (t.val % 16) j) cc) := by
  have ht : t.val < 256 := lt_of_lt_of_eq t.isLt N_0
  have hi : win0_3.index t 0 = t.val % 16 ∧ win0_3.index t 1 = 0 :=
    (by decide +kernel : ∀ t : Fin grid0.N, win0_3.index t 0 = t.val % 16 ∧ win0_3.index t 1 = 0) t
  unfold iblk
  rw [View.read_apply]
  show (V m c main_v5 : S8192x2048.Idx → EReal) _ = _
  rw [arr3 m c]
  have hemb : (((cfg0.win 3).blk t).view.emb (ix2 j cc) : S8192x2048.Idx)
      = ix2 (Cert.Spec.col (t.val % 16) j) cc := funext fun a => Fin.ext (by
    match a with
    | ⟨0, _⟩ =>
      show win0_3.index t 0 * 512 + 1 * j.val = (512 * (t.val % 16) + j.val) % 8192
      rw [hi.1]; omega
    | ⟨1, _⟩ => show win0_3.index t 1 * 2048 + 1 * cc.val = cc.val; rw [hi.2]; omega)
  exact congrArg (m ((c : Thread nD τ).loc main_arg4)) hemb

/-- Window 4's array: the second branch's gate up-projection, narrowed (the identity here). -/
theorem arr4 (c : Dev nD) : (V m c main_v6 : S8192x2048.Idx → EReal)
    = truncf (F := Ideal) (φ := .f32) .bf16 (m ((c : Thread nD τ).loc main_arg5)) Facts₀.bitsLt_bf16_f32 := by
  show StableHlo.after hostOps0 (fun b => m (c, b)) (Proc.devRef .tc main_v6) = _
  after_results

/-- Window 4's block at point `t`: the rows of block `t % 16` of the second branch's gate up-projection. -/
theorem blk4 (c : Dev nD) (t : Fin cfg0.N) (j : Fin 512) (cc : Fin 2048) :
    (iblk m c 4 t : Vec Ideal S512x2048 .bf16) (ix2 j cc)
      = m ((c : Thread nD τ).loc main_arg5) (ix2 (Cert.Spec.col (t.val % 16) j) cc) := by
  have ht : t.val < 256 := lt_of_lt_of_eq t.isLt N_0
  have hi : win0_4.index t 0 = t.val % 16 ∧ win0_4.index t 1 = 0 :=
    (by decide +kernel : ∀ t : Fin grid0.N, win0_4.index t 0 = t.val % 16 ∧ win0_4.index t 1 = 0) t
  unfold iblk
  rw [View.read_apply]
  show (V m c main_v6 : S8192x2048.Idx → EReal) _ = _
  rw [arr4 m c]
  have hemb : (((cfg0.win 4).blk t).view.emb (ix2 j cc) : S8192x2048.Idx)
      = ix2 (Cert.Spec.col (t.val % 16) j) cc := funext fun a => Fin.ext (by
    match a with
    | ⟨0, _⟩ =>
      show win0_4.index t 0 * 512 + 1 * j.val = (512 * (t.val % 16) + j.val) % 8192
      rw [hi.1]; omega
    | ⟨1, _⟩ => show win0_4.index t 1 * 2048 + 1 * cc.val = cc.val; rw [hi.2]; omega)
  exact congrArg (m ((c : Thread nD τ).loc main_arg5)) hemb

/-- Window 5's array: the second branch's second up-projection, narrowed (the identity here). -/
theorem arr5 (c : Dev nD) : (V m c main_v7 : S8192x2048.Idx → EReal)
    = truncf (F := Ideal) (φ := .f32) .bf16 (m ((c : Thread nD τ).loc main_arg7)) Facts₀.bitsLt_bf16_f32 := by
  show StableHlo.after hostOps0 (fun b => m (c, b)) (Proc.devRef .tc main_v7) = _
  after_results

/-- Window 5's block at point `t`: the rows of block `t % 16` of the second branch's second up-projection. -/
theorem blk5 (c : Dev nD) (t : Fin cfg0.N) (j : Fin 512) (cc : Fin 2048) :
    (iblk m c 5 t : Vec Ideal S512x2048 .bf16) (ix2 j cc)
      = m ((c : Thread nD τ).loc main_arg7) (ix2 (Cert.Spec.col (t.val % 16) j) cc) := by
  have ht : t.val < 256 := lt_of_lt_of_eq t.isLt N_0
  have hi : win0_5.index t 0 = t.val % 16 ∧ win0_5.index t 1 = 0 :=
    (by decide +kernel : ∀ t : Fin grid0.N, win0_5.index t 0 = t.val % 16 ∧ win0_5.index t 1 = 0) t
  unfold iblk
  rw [View.read_apply]
  show (V m c main_v7 : S8192x2048.Idx → EReal) _ = _
  rw [arr5 m c]
  have hemb : (((cfg0.win 5).blk t).view.emb (ix2 j cc) : S8192x2048.Idx)
      = ix2 (Cert.Spec.col (t.val % 16) j) cc := funext fun a => Fin.ext (by
    match a with
    | ⟨0, _⟩ =>
      show win0_5.index t 0 * 512 + 1 * j.val = (512 * (t.val % 16) + j.val) % 8192
      rw [hi.1]; omega
    | ⟨1, _⟩ => show win0_5.index t 1 * 2048 + 1 * cc.val = cc.val; rw [hi.2]; omega)
  exact congrArg (m ((c : Thread nD τ).loc main_arg7)) hemb

/-- Window 6's array: the first branch's down-projection, narrowed (the identity here). -/
theorem arr6 (c : Dev nD) : (V m c main_v8 : S2048x8192.Idx → EReal)
    = truncf (F := Ideal) (φ := .f32) .bf16 (m ((c : Thread nD τ).loc main_arg3)) Facts₀.bitsLt_bf16_f32 := by
  show StableHlo.after hostOps0 (fun b => m (c, b)) (Proc.devRef .tc main_v8) = _
  after_results

/-- Window 6's block at point `t`: the columns of block `t % 16` of the first branch's down-projection. -/
theorem blk6 (c : Dev nD) (t : Fin cfg0.N) (h : Fin 2048) (j : Fin 512) :
    (iblk m c 6 t : Vec Ideal S2048x512 .bf16) (ix2 h j)
      = m ((c : Thread nD τ).loc main_arg3) (ix2 h (Cert.Spec.col (t.val % 16) j)) := by
  have ht : t.val < 256 := lt_of_lt_of_eq t.isLt N_0
  have hi : win0_6.index t 0 = 0 ∧ win0_6.index t 1 = t.val % 16 :=
    (by decide +kernel : ∀ t : Fin grid0.N, win0_6.index t 0 = 0 ∧ win0_6.index t 1 = t.val % 16) t
  unfold iblk
  rw [View.read_apply]
  show (V m c main_v8 : S2048x8192.Idx → EReal) _ = _
  rw [arr6 m c]
  have hemb : (((cfg0.win 6).blk t).view.emb (ix2 h j) : S2048x8192.Idx)
      = ix2 h (Cert.Spec.col (t.val % 16) j) := funext fun a => Fin.ext (by
    match a with
    | ⟨0, _⟩ => show win0_6.index t 0 * 2048 + 1 * h.val = h.val; rw [hi.1]; omega
    | ⟨1, _⟩ =>
      show win0_6.index t 1 * 512 + 1 * j.val = (512 * (t.val % 16) + j.val) % 8192
      rw [hi.2]; omega)
  exact congrArg (m ((c : Thread nD τ).loc main_arg3)) hemb

/-- Window 7's array: the second branch's down-projection, narrowed (the identity here). -/
theorem arr7 (c : Dev nD) : (V m c main_v9 : S2048x8192.Idx → EReal)
    = truncf (F := Ideal) (φ := .f32) .bf16 (m ((c : Thread nD τ).loc main_arg6)) Facts₀.bitsLt_bf16_f32 := by
  show StableHlo.after hostOps0 (fun b => m (c, b)) (Proc.devRef .tc main_v9) = _
  after_results

/-- Window 7's block at point `t`: the columns of block `t % 16` of the second branch's down-projection. -/
theorem blk7 (c : Dev nD) (t : Fin cfg0.N) (h : Fin 2048) (j : Fin 512) :
    (iblk m c 7 t : Vec Ideal S2048x512 .bf16) (ix2 h j)
      = m ((c : Thread nD τ).loc main_arg6) (ix2 h (Cert.Spec.col (t.val % 16) j)) := by
  have ht : t.val < 256 := lt_of_lt_of_eq t.isLt N_0
  have hi : win0_7.index t 0 = 0 ∧ win0_7.index t 1 = t.val % 16 :=
    (by decide +kernel : ∀ t : Fin grid0.N, win0_7.index t 0 = 0 ∧ win0_7.index t 1 = t.val % 16) t
  unfold iblk
  rw [View.read_apply]
  show (V m c main_v9 : S2048x8192.Idx → EReal) _ = _
  rw [arr7 m c]
  have hemb : (((cfg0.win 7).blk t).view.emb (ix2 h j) : S2048x8192.Idx)
      = ix2 h (Cert.Spec.col (t.val % 16) j) := funext fun a => Fin.ext (by
    match a with
    | ⟨0, _⟩ => show win0_7.index t 0 * 2048 + 1 * h.val = h.val; rw [hi.1]; omega
    | ⟨1, _⟩ =>
      show win0_7.index t 1 * 512 + 1 * j.val = (512 * (t.val % 16) + j.val) % 8192
      rw [hi.2]; omega)
  exact congrArg (m ((c : Thread nD τ).loc main_arg6)) hemb

end

end Cert.KernelIdeal.Blocks

end
-- ==== Proof.ChainValue.lean ====
/-
  The accumulator chain, read at one entry, on the extended reals.

  Row `r` of the blocks at point `n` belongs to one token: flat row `512 (n / 16) + r` of the `[8192, 2048]` view of
  the input.  One `step` adds, to entry `(r, h)` of the accumulator, exactly the block term of column `n % 16` for
  that token (`stepAt_apply`): the blocks are the argument arrays read at the block's offsets, a change of float
  format being the identity here.  So the chain at point `n` is the running sum of the block terms `0 … n % 16`
  (`chain_apply`), by induction on the point: a first column starts from the zero block, any other column adds to
  what the point before left, and the token does not change along a grid row.
-/
import proofs.«168786_j17377437680118_2_alg».proof.Proof.Accum
import proofs.«168786_j17377437680118_2_alg».proof.Proof.Body
import proofs.«168786_j17377437680118_2_alg».proof.Proof.Blocks
import proofs.«168786_j17377437680118_2_alg».proof.Proof.Spec

set_option maxRecDepth 16384

noncomputable section

open scoped BigOperators
open Idealize.ShloMosaic Idealize.ShloMosaic.TcCoe Idealize.SL.Sem Idealize.ShloMosaic.ValueIdx

namespace Cert.KernelIdeal.ChainValue

open Cert.KernelIdeal Cert.KernelIdeal.Gen Cert.KernelIdeal.Pieces Cert.KernelIdeal.Accum Cert.KernelIdeal.Blocks
open Cert.Spec (glu act blockTerm running col)

variable (m : (ℓ : Loc nD τ sig) → Buf (Elt Ideal) ℓ)

/-- The token of row `r` of the blocks at point `n`: its row of the input. -/
def xrow (c : Dev nD) (n : ℕ) (r : Fin 512) : Fin 2048 → EReal := fun cc =>
  (m ((c : Thread nD τ).loc main_arg0)) (ix3 (tokB n r) (tokS n r) cc)

/-- That token's bit, read as a number. -/
def mval (c : Dev nD) (n : ℕ) (r : Fin 512) : EReal :=
  ((((m ((c : Thread nD τ).loc main_arg1)) (ix2 (tokB n r) (tokS n r))).toNat : ℝ) : EReal)

/-- The block terms of that token for output feature `h`. -/
def term (c : Dev nD) (n : ℕ) (r : Fin 512) (h : Fin 2048) : ℕ → EReal :=
  blockTerm (xrow m c n r) (mval m c n r) 1 (m ((c : Thread nD τ).loc main_arg2)) (m ((c : Thread nD τ).loc main_arg4)) (m ((c : Thread nD τ).loc main_arg5)) (m ((c : Thread nD τ).loc main_arg7)) (m ((c : Thread nD τ).loc main_arg3)) (m ((c : Thread nD τ).loc main_arg6)) h

/-- The token, and so the block terms, depend on the point only through its grid row. -/
theorem term_congr (c : Dev nD) {n n' : ℕ} (e : n / 16 = n' / 16) (r : Fin 512) (h : Fin 2048) :
    term m c n r h = term m c n' r h := by
  have eB : tokB n r = tokB n' r :=
    Fin.ext (by show (512 * (n / 16) + r.val) / 2048 % 4 = (512 * (n' / 16) + r.val) / 2048 % 4; rw [e])
  have eS : tokS n r = tokS n' r :=
    Fin.ext (by show (512 * (n / 16) + r.val) % 2048 = (512 * (n' / 16) + r.val) % 2048; rw [e])
  unfold term xrow mval
  rw [eB, eS]

/-- One step adds the block term of the point's column. -/
theorem stepAt_apply (c : Dev nD) (t : Fin cfg0.N) (acc : Vec Ideal S512x2048 .f32) (r : Fin 512) (h : Fin 2048) :
    stepAt m c t acc (ix2 r h) = acc (ix2 r h) + term m c t.val r h (t.val % 16) := by
  unfold stepAt
  refine (Body.step_apply (iblk m c 0 t) (iblk m c 1 t) (iblk m c 2 t) (iblk m c 3 t) (iblk m c 4 t) (iblk m c 5 t) (iblk m c 6 t) (iblk m c 7 t) acc r h).trans ?_
  unfold term blockTerm act xrow mval
  simp only [blk0 m c t, blk1 m c t, blk2 m c t, blk3 m c t, blk4 m c t, blk5 m c t, blk6 m c t, blk7 m c t]

/-- THE CHAIN AT AN ENTRY: the running sum of the block terms of the columns up to the point's. -/
theorem chain_apply (c : Dev nD) : ∀ (n : ℕ) (hn : n < cfg0.N) (r : Fin 512) (h : Fin 2048),
    chain m c n hn (ix2 r h) = running 0 (term m c n r h) (n % 16) := by
  intro n
  induction n with
  | zero =>
    intro hn r h
    show stepAt m c ⟨0, hn⟩ zeroBlock (ix2 r h) = _
    rw [stepAt_apply, Body.zeroBlock_apply]
    rfl
  | succ n ih =>
    intro hn r h
    have hN : n + 1 < 256 := lt_of_lt_of_eq hn (show cfg0.N = 256 from N_0)
    by_cases h0 : (n + 1) % 16 = 0
    · rw [chain_first m c ⟨n + 1, hn⟩ h0, stepAt_apply, Body.zeroBlock_apply]
      show (0 : EReal) + term m c (n + 1) r h ((n + 1) % 16) = running 0 (term m c (n + 1) r h) ((n + 1) % 16)
      rw [h0]
      rfl
    · rw [chain_next m c ⟨n + 1, hn⟩ h0, stepAt_apply]
      show chain m c n _ (ix2 r h) + term m c (n + 1) r h ((n + 1) % 16) = running 0 (term m c (n + 1) r h) ((n + 1) % 16)
      rw [ih _ r h, term_congr m c (show n / 16 = (n + 1) / 16 by omega) r h,
        show (n + 1) % 16 = n % 16 + 1 by omega]
      rfl

end Cert.KernelIdeal.ChainValue

end
-- ==== Proof.SpecLaws.lean ====
/-
  Three laws of the blocked evaluation of the layer.

  * `sum_blocks`: the 8192 activations are the 16 blocks of 512, block `k` holding the indices `512 k + j`; a sum
    over all of them is the sum over the blocks of the sums inside each block.
  * `running_eq_sum`: the running sum started at `0` is, after block `n`, the plain sum of the blocks `0 … n`.
  * `running_last`: after the last block the running sum of the two scaled branches is the chosen branch alone.
    The bit reads `0` or `1`; the branch it does not choose is multiplied by `0`, and on the extended reals
    `a * 0 = 0` for every `a`, the infinite ones included, so that branch adds exactly `0` to every block and no
    finiteness of the activations is needed; the chosen branch is multiplied by `1`.
-/
import proofs.«168786_j17377437680118_2_alg».proof.Proof.Spec

noncomputable section

open scoped BigOperators

namespace Cert.Spec

open Idealize.ShloMosaic Idealize.ShloMosaic.ValueIdx

/-- For a block number below 16 no reduction mod 8192 happens: `col k j` is `512 k + j`, which is the value the
    standard bijection `Fin 16 × Fin 512 ≃ Fin (16 * 512)` gives the pair `(k, j)`. -/
theorem col_eq_pair (p : Fin 16 × Fin 512) : col p.1.val p.2 = finProdFinEquiv p := by
  apply Fin.ext
  show (512 * p.1.val + p.2.val) % 8192 = p.2.val + 512 * p.1.val
  have h1 := p.1.isLt
  have h2 := p.2.isLt
  omega

/-- A sum over the 8192 activations is the sum over the 16 blocks of the sums over each block's 512. -/
theorem sum_blocks (f : Fin 8192 → EReal) :
    ∑ k ∈ Finset.range 16, ∑ j : Fin 512, f (col k j) = ∑ i : Fin 8192, f i := by
  -- the block number as an element of `Fin 16`, then the two sums as one sum over pairs
  rw [← Fin.sum_univ_eq_sum_range (fun k => ∑ j : Fin 512, f (col k j)) 16, ← Fintype.sum_prod_type']
  -- pairs `(k, j)` are in bijection with `Fin (16 * 512) = Fin 8192` through `(k, j) ↦ 512 k + j`
  rw [← Equiv.sum_comp (finProdFinEquiv (m := 16) (n := 512)) (fun i : Fin (16 * 512) => f i)]
  exact Finset.sum_congr rfl fun p _ => congrArg f (col_eq_pair p)

/-- Started at `0`, the running sum after block `n` is the sum of the blocks `0 … n`. -/
theorem running_eq_sum (T : ℕ → EReal) (n : ℕ) : running 0 T n = ∑ k ∈ Finset.range (n + 1), T k := by
  induction n with
  | zero => rw [running, zero_add, Finset.sum_range_one]
  | succ n ih => rw [running, ih, Finset.sum_range_succ _ (n + 1)]

/-- `1 - 1 = 0` on the extended reals (both operands are finite). -/
theorem one_sub_one : (1 : EReal) - 1 = 0 := by
  rw [← EReal.coe_one, ← EReal.coe_sub, sub_self, EReal.coe_zero]

/-- After the last of the 16 blocks the running sum is the branch the token's bit chooses. -/
theorem running_last (xrow : Fin 2048 → EReal) (mv one : EReal) (h1 : one = 1) (hm : mv = 0 ∨ mv = 1)
    (w1 w3 u1 u3 : Su.Idx → EReal) (w2 u2 : Sd.Idx → EReal) (h : Fin 2048) :
    running 0 (blockTerm xrow mv one w1 w3 u1 u3 w2 u2 h) 15
      = if mv = 1 then branch xrow w1 w3 w2 h else branch xrow u1 u3 u2 h := by
  subst h1
  rw [running_eq_sum]
  show ∑ k ∈ Finset.range 16, blockTerm xrow mv 1 w1 w3 u1 u3 w2 u2 h k = _
  rcases hm with rfl | rfl
  · -- the bit reads 0: the first branch's block is scaled by 0, the second's by 1 - 0 = 1
    have hk : ∀ k, blockTerm xrow 0 1 w1 w3 u1 u3 w2 u2 h k
        = ∑ j : Fin 512, act xrow u1 u3 (col k j) * u2 (ix2 h (col k j)) := by
      intro k
      unfold blockTerm
      simp only [mul_zero, zero_mul, Finset.sum_const_zero, zero_add, sub_zero, mul_one]
    rw [if_neg (zero_ne_one' EReal), Finset.sum_congr rfl fun k _ => hk k]
    unfold branch
    exact sum_blocks fun i => act xrow u1 u3 i * u2 (ix2 h i)
  · -- the bit reads 1: the first branch's block is scaled by 1, the second's by 1 - 1 = 0
    have hk : ∀ k, blockTerm xrow 1 1 w1 w3 u1 u3 w2 u2 h k
        = ∑ j : Fin 512, act xrow w1 w3 (col k j) * w2 (ix2 h (col k j)) := by
      intro k
      unfold blockTerm
      simp only [one_sub_one, mul_zero, zero_mul, Finset.sum_const_zero, add_zero, mul_one]
    rw [if_pos rfl, Finset.sum_congr rfl fun k _ => hk k]
    unfold branch
    exact sum_blocks fun i => act xrow w1 w3 i * w2 (ix2 h i)

end Cert.Spec

end
-- ==== Proof.KernelValue.lean ====
/-
  The kernel's result is the layer.

  Entry `(b, s, h)` of the result is entry `(R, h)` of the `[8192, 2048]` array, `R = 2048 b + s`; that is the
  accumulator chain at the last point of `R`'s grid row, so the running sum of all 16 block terms of the token
  `(b, s)`; and that running sum is the branch the token's bit chooses.
-/
import proofs.«168786_j17377437680118_2_alg».proof.Proof.Final
import proofs.«168786_j17377437680118_2_alg».proof.Proof.ChainValue
import proofs.«168786_j17377437680118_2_alg».proof.Proof.SpecLaws

set_option maxRecDepth 16384

noncomputable section

open scoped BigOperators
open Idealize.ShloMosaic Idealize.ShloMosaic.TcCoe Idealize.SL.Sem Idealize.ShloMosaic.ValueIdx

namespace Cert.KernelIdeal.KernelValue

open Cert.KernelIdeal Cert.KernelIdeal.Gen Cert.KernelIdeal.Accum Cert.KernelIdeal.Blocks Cert.KernelIdeal.Final
  Cert.KernelIdeal.ChainValue
open Cert.Spec (G branch blockTerm running running_last)

/-- An `[8192, 2048]` array viewed as `[4, 2048, 2048]` reads, at `(b, s, h)`, its entry `(2048 b + s, h)`. -/
theorem unflatten_apply {α : Type} (A : S8192x2048.Idx → α) (hc : S8192x2048.ShapeCasts S4x2048x2048)
    (b : Fin 4) (s : Fin 2048) (h : Fin 2048) (R : Fin 8192) (hR : R.val = 2048 * b.val + s.val) :
    shapeCast S4x2048x2048 A hc (ix3 b s h) = A (ix2 R h) :=
  shapeCast_apply A hc _ _ (by
    rw [Shape.rowMajor_val_two, Shape.rowMajor_val_three]
    show R.val * 2048 + h.val = (b.val * 2048 + s.val) * 2048 + h.val
    rw [hR]; ring)

variable (m : (ℓ : Loc nD τ sig) → Buf (Elt Ideal) ℓ)

/-- A bit read as a number is `0` or `1`, and is `1` exactly when the bit is set. -/
theorem bit_cases (x : BitVec 1) :
    ((((x.toNat : ℝ) : EReal) = 0 ∧ x = 0#1) ∨ (((x.toNat : ℝ) : EReal) = 1 ∧ x = 1#1)) := by
  rcases BitVec.eq_zero_or_eq_one x with h | h
  · left; subst h; exact ⟨by simp, rfl⟩
  · right; subst h; exact ⟨by simp, rfl⟩

/-- THE KERNEL'S RESULT, as a function of the argument arrays, is the layer `G`. -/
theorem kernel_eq (c : Dev nD) :
    shapeCast S4x2048x2048 (result m c) Facts₀.shapeCasts_S8192x2048_S4x2048x2048
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext j
  obtain ⟨b, s, h, rfl⟩ : ∃ (b : Fin 4) (s : Fin 2048) (h : Fin 2048), j = ix3 b s h := ⟨j 0, j 1, j 2, eq_ix3 j⟩
  have hb : b.val < 4 := b.isLt
  have hs : s.val < 2048 := s.isLt
  have hR : 2048 * b.val + s.val < 8192 := by omega
  rw [unflatten_apply _ _ b s h ⟨2048 * b.val + s.val, hR⟩ rfl]
  show chain m c (lastPt (2048 * b.val + s.val)) (lastPt_lt _)
      (ix2 (⟨(2048 * b.val + s.val) % 512, Nat.mod_lt _ (by norm_num)⟩ : Fin 512) (⟨h.val, h.isLt⟩ : Fin 2048)) = _
  rw [chain_apply]
  have h15 : lastPt (2048 * b.val + s.val) % 16 = 15 := by unfold lastPt; omega
  have eB : tokB (lastPt (2048 * b.val + s.val)) (⟨(2048 * b.val + s.val) % 512, Nat.mod_lt _ (by norm_num)⟩ : Fin 512) = b :=
    Fin.ext (by
      show (512 * (lastPt (2048 * b.val + s.val) / 16) + (2048 * b.val + s.val) % 512) / 2048 % 4 = b.val
      unfold lastPt; omega)
  have eS : tokS (lastPt (2048 * b.val + s.val)) (⟨(2048 * b.val + s.val) % 512, Nat.mod_lt _ (by norm_num)⟩ : Fin 512) = s :=
    Fin.ext (by
      show (512 * (lastPt (2048 * b.val + s.val) / 16) + (2048 * b.val + s.val) % 512) % 2048 = s.val
      unfold lastPt; omega)
  rw [h15]
  unfold term xrow mval
  rw [eB, eS]
  show running 0 (blockTerm (fun cc => (m ((c : Thread nD τ).loc main_arg0)) (ix3 b s cc))
      ((((m ((c : Thread nD τ).loc main_arg1)) (ix2 b s)).toNat : ℝ) : EReal) 1 _ _ _ _ _ _ ⟨h.val, h.isLt⟩) 15
    = Scalar.select ((m ((c : Thread nD τ).loc main_arg1)) (ix2 b s))
        (branch (fun cc => (m ((c : Thread nD τ).loc main_arg0)) (ix3 b s cc)) _ _ _ h)
        (branch (fun cc => (m ((c : Thread nD τ).loc main_arg0)) (ix3 b s cc)) _ _ _ h)
  rcases bit_cases ((m ((c : Thread nD τ).loc main_arg1)) (ix2 b s)) with ⟨hv, hx⟩ | ⟨hv, hx⟩
  · rw [running_last _ _ 1 rfl (Or.inl hv), hv, hx, if_neg (zero_ne_one' EReal)]
    rfl
  · rw [running_last _ _ 1 rfl (Or.inr hv), hv, hx, if_pos rfl]
    rfl

end Cert.KernelIdeal.KernelValue

end
-- ==== Proof.RefValue.lean ====
/-
  The reference program computes the layer `G` of the specification.

  Read at an output index `(b, s, h)`, the program's result is a choice, by the bit of token `(b, s)`, between two
  down-projections.  Each is a sum over the 8192 activations `k` of the gated activation times the down-projection's
  entry `(h, k)`; a gated activation is `(a * (1 / (1 + exp (-a)))) * c` where `a` and `c` are the dot products of
  the token's row with rows `k` of the two up-projections.  `1 / (1 + exp (-a))` is by definition the logistic
  function, so the activation is `act` of the specification, the down-projection is `branch`, and the choice is `G`.

  The two branches of the program are the same operations applied to other operands, so the second branch's
  operations are the first's by definition, and one chain of read lemmas serves both.
-/
import proofs.«168786_j17377437680118_2_alg».proof.Proof.Gen.ReferenceIdeal.Read
import proofs.«168786_j17377437680118_2_alg».proof.Proof.Spec

noncomputable section

open scoped BigOperators

namespace Cert.RefValue

open Cert.ReferenceIdeal Cert.ReferenceIdeal.Gen Cert.ReferenceIdeal.Read
open Idealize.ShloMosaic Idealize.ShloMosaic.ValueIdx Cert.Spec

/-- The bit pattern of the program's constant is the number one. -/
theorem one_bits : Ideal.ofBits .f32 0x3F800000#32 = 1 := by
  simp [Ideal.ofBits, Ideal.ieee, -EReal.coe_mul]; norm_num

/-- An up-projection's dot product at `(b, s, k)`: the token's row against row `k` of the matrix. -/
theorem dot_up (x0 : (⟨S4x2048x2048, .f32⟩ : BufTy).Contents (Elt Ideal))
    (w : (⟨S8192x2048, .f32⟩ : BufTy).Contents (Elt Ideal)) (b : Fin 4) (s : Fin 2048) (k : Fin 8192) :
    val_main_v0 (F := Ideal) x0 w (ix3 b s k) = ∑ c : Fin 2048, x0 (ix3 b s c) * w (ix2 k c) := by
  rw [val_main_v0_apply]
  refine Finset.sum_congr rfl fun c _ => ?_
  have el : lidx_main_v0 (ix3 b s k) c = ix3 b s c := funext fun a => Fin.ext (by
    match a with
    | ⟨0, _⟩ => rfl
    | ⟨1, _⟩ => rfl
    | ⟨2, _⟩ => rfl)
  have er : ridx_main_v0 (ix3 b s k) c = ix2 k c := funext fun a => Fin.ext (by
    match a with
    | ⟨0, _⟩ => rfl
    | ⟨1, _⟩ => rfl)
  rw [el, er]

/-- The program's silu of a dot product `a` is `a * logistic a`: it multiplies `a` by `1 / (1 + exp (-a))`. -/
theorem silu_up (x0 : (⟨S4x2048x2048, .f32⟩ : BufTy).Contents (Elt Ideal))
    (w : (⟨S8192x2048, .f32⟩ : BufTy).Contents (Elt Ideal)) (i : S4x2048x8192.Idx) :
    val_main_v1 (F := Ideal) x0 w i
      = val_main_v0 (F := Ideal) x0 w i * Ideal.logistic (val_main_v0 (F := Ideal) x0 w i) := by
  rw [val_main_v1_apply, val_main_call0_v5_apply, val_main_call0_v4_apply, val_main_call0_cst_0_apply,
    val_main_call0_v3_apply, val_main_call0_v2_apply, val_main_call0_cst_apply, val_main_call0_v1_apply,
    val_main_call0_v0_apply]
  generalize val_main_v0 (F := Ideal) x0 w i = a
  show a * Ideal.div (Ideal.ofBits .f32 0x3F800000#32) (Ideal.ofBits .f32 0x3F800000#32 + Ideal.exp (-a))
    = a * Ideal.div 1 (1 + Ideal.exp (-a))
  rw [one_bits]

/-- The program's gated activation at `(b, s, k)` is `act` of the token's row. -/
theorem act_up (x0 : (⟨S4x2048x2048, .f32⟩ : BufTy).Contents (Elt Ideal))
    (wa wb : (⟨S8192x2048, .f32⟩ : BufTy).Contents (Elt Ideal)) (b : Fin 4) (s : Fin 2048) (k : Fin 8192) :
    val_main_v3 (F := Ideal) x0 wa wb (ix3 b s k) = act (fun c => x0 (ix3 b s c)) wa wb k := by
  -- the second dot product is the first one's operation on the other matrix
  have h2 : val_main_v2 (F := Ideal) x0 wb = val_main_v0 (F := Ideal) x0 wb := rfl
  rw [val_main_v3_apply, silu_up, h2, dot_up, dot_up]
  rfl

/-- One branch of the program at `(b, s, h)` is `branch` of the token's row. -/
theorem branch_up (x0 : (⟨S4x2048x2048, .f32⟩ : BufTy).Contents (Elt Ideal))
    (wa : (⟨S8192x2048, .f32⟩ : BufTy).Contents (Elt Ideal)) (wd : (⟨S2048x8192, .f32⟩ : BufTy).Contents (Elt Ideal))
    (wb : (⟨S8192x2048, .f32⟩ : BufTy).Contents (Elt Ideal)) (b : Fin 4) (s h : Fin 2048) :
    val_main_v8 (F := Ideal) x0 wa wd wb (ix3 b s h) = branch (fun c => x0 (ix3 b s c)) wa wb wd h := by
  rw [val_main_v8_apply]
  unfold branch
  refine Finset.sum_congr rfl fun k _ => ?_
  have el : lidx_main_v8 (ix3 b s h) k = ix3 b s k := funext fun a => Fin.ext (by
    match a with
    | ⟨0, _⟩ => rfl
    | ⟨1, _⟩ => rfl
    | ⟨2, _⟩ => rfl)
  have er : ridx_main_v8 (ix3 b s h) k = ix2 h k := funext fun a => Fin.ext (by
    match a with
    | ⟨0, _⟩ => rfl
    | ⟨1, _⟩ => rfl)
  rw [el, er, act_up]

/-- The reference program's result is the layer `G`. -/
theorem ref_eq (x0 : (⟨S4x2048x2048, .f32⟩ : BufTy).Contents (Elt Ideal))
    (x1 : (⟨S4x2048, .i1⟩ : BufTy).Contents (Elt Ideal)) (x2 : (⟨S8192x2048, .f32⟩ : BufTy).Contents (Elt Ideal))
    (x3 : (⟨S2048x8192, .f32⟩ : BufTy).Contents (Elt Ideal)) (x4 x5 : (⟨S8192x2048, .f32⟩ : BufTy).Contents (Elt Ideal))
    (x6 : (⟨S2048x8192, .f32⟩ : BufTy).Contents (Elt Ideal)) (x7 : (⟨S8192x2048, .f32⟩ : BufTy).Contents (Elt Ideal)) :
    Cert.ReferenceIdeal.Read.val_main_v11 (F := Ideal) x0 x1 x2 x3 x4 x5 x6 x7
      = Cert.Spec.G x0 x1 x2 x3 x4 x5 x6 x7 := by
  funext j
  obtain ⟨b, s, h, rfl⟩ : ∃ b s h, j = ix3 b s h := ⟨j 0, j 1, j 2, eq_ix3 j⟩
  -- the second branch's down-projection is the first one's operation on the second branch's matrices
  have h9 : val_main_v9 (F := Ideal) x0 x5 x6 x7 = val_main_v8 (F := Ideal) x0 x5 x6 x7 := rfl
  -- the bit is read at the token `(b, s)`, whatever the feature `h`
  have em : idx_main_v10 (idx_main_call2_v0 (ix3 b s h)) = ix2 b s := funext fun a => Fin.ext (by
    match a with
    | ⟨0, _⟩ => rfl
    | ⟨1, _⟩ => rfl)
  rw [val_main_v11_apply, val_main_call2_v0_apply, val_main_v10_apply, em, h9, branch_up, branch_up]
  rfl

end Cert.RefValue

end
-- ==== Proof.lean ====
/-
  The certificate of the two-branch gated feed-forward kernel against its reference.

  Both programs compute, for each of the 4 x 2048 tokens, the layer `Cert.Spec.G`: two gated feed-forward branches
  and a one-bit choice between them per token.

  * The reference computes both branches whole and selects (Proof/RefValue.lean).
  * The kernel walks a 16 x 16 grid: a grid row is a block of 512 tokens, a grid column a block of 512 of the 8192
    activations.  At each point it multiplies the first branch's activations by the token's bit read as a number and
    the second's by one minus it, down-projects both blocks and adds them into one accumulator, which is reset at the
    first column and written out after the last (Proof/Pieces.lean, Proof/Accum.lean, Proof/Final.lean).  Read at an
    entry on the extended reals the accumulator is a running sum of block terms (Proof/Body.lean, Proof/Blocks.lean,
    Proof/ChainValue.lean), and since `a * 0 = 0` for every extended real `a` the branch that is not chosen adds
    exactly `0`, so the sum over the 16 blocks is the chosen branch (Proof/SpecLaws.lean, Proof/KernelValue.lean).
    No finiteness of the inputs is used.
  * The idealization rewrote nothing, and the three programs run to the end with their arguments unchanged: the two
    kernels by their frame runs, the reference by its run.
-/
import proofs.«168786_j17377437680118_2_alg».proof.Defs
import proofs.«168786_j17377437680118_2_alg».proof.Proof.Gen.Kernel
import proofs.«168786_j17377437680118_2_alg».proof.Proof.Gen.Kernel.Skeleton
import proofs.«168786_j17377437680118_2_alg».proof.Proof.Gen.Kernel.Launch
import proofs.«168786_j17377437680118_2_alg».proof.Proof.Gen.Kernel.Points
import proofs.«168786_j17377437680118_2_alg».proof.Proof.Gen.Kernel.Frame
import proofs.«168786_j17377437680118_2_alg».proof.Proof.Gen.KernelIdeal
import proofs.«168786_j17377437680118_2_alg».proof.Proof.Gen.KernelIdeal.Skeleton
import proofs.«168786_j17377437680118_2_alg».proof.Proof.Gen.KernelIdeal.Launch
import proofs.«168786_j17377437680118_2_alg».proof.Proof.Gen.KernelIdeal.Points
import proofs.«168786_j17377437680118_2_alg».proof.Proof.Gen.KernelIdeal.Frame
import proofs.«168786_j17377437680118_2_alg».proof.Proof.Gen.ReferenceIdeal
import proofs.«168786_j17377437680118_2_alg».proof.Proof.Gen.ReferenceIdeal.Run
import proofs.«168786_j17377437680118_2_alg».proof.Proof.Gen.ReferenceIdeal.Read
import proofs.«168786_j17377437680118_2_alg».proof.Proof.Gen.Pre_finite_inputs
import proofs.«168786_j17377437680118_2_alg».proof.Proof.Final
import proofs.«168786_j17377437680118_2_alg».proof.Proof.KernelValue
import proofs.«168786_j17377437680118_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result and the reference's, from memories that agree on the arguments, are the
    same function `Cert.Spec.G` of the arguments. -/
theorem algebraic : Cert.algebraic_KernelIdeal_ReferenceIdeal := by
  intro m ρ m' ρ' _ hagree
  refine ⟨fun c => shapeCast Cert.KernelIdeal.S4x2048x2048 (Cert.KernelIdeal.Final.result m c) Cert.KernelIdeal.Facts₀.shapeCasts_S8192x2048_S4x2048x2048,
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.RefValue.ref_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.KernelIdeal.KernelValue.kernel_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
